-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S32x128 : Shape := ⟨2, ![32, 128]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S32x128 : S_.BroadcastsInDim S32x128 (![] : Fin 0 → Fin S32x128.rank)
  reducesTo_S32x128_S_d0_1 : S32x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S600000x128 .f32) (main_arg3 : FVec F S32x128 .f32) (main_arg4 : IVec S50000 32) (main_arg5 : FVec F S256x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S32x128 : Shape := ⟨2, ![32, 128]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S5000x128 : Shape := ⟨2, ![5000, 128]⟩

abbrev nBuf : Space → Nat
  | .hbm => 20
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S32x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S600000x1, .i32⟩
  | .hbm, ⟨14, _⟩ => ⟨S50000x128, .f32⟩
  | .hbm, ⟨15, _⟩ => ⟨S128x128, .f32⟩
  | .hbm, ⟨16, _⟩ => ⟨S128x128, .f32⟩
  | .hbm, ⟨17, _⟩ => ⟨S1x128, .f32⟩
  | .hbm, ⟨18, _⟩ => ⟨S1x128, .f32⟩
  | .hbm, ⟨19, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S32x128 : Shape := ⟨2, ![32, 128]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x256 : Shape := ⟨2, ![50000, 256]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S32x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S600000x1, .i32⟩
  | .hbm, ⟨14, _⟩ => ⟨S50000x128, .f32⟩
  | .hbm, ⟨15, _⟩ => ⟨S50000x256, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.KernelPayload.lean ====
/-
  One block of the perceptron, entry by entry.

  The body receives a block of 5000 node rows `x`, the matching block of aggregated messages `a`, the two halves
  `U`, `L` of the first weight matrix, the first bias as a row, the second weight matrix `W` and the second bias as
  a row. Rounding to a narrower format is the identity on the extended reals, and a matrix product accumulated into the
  zero matrix is the plain sum of products, so entry `(p, q)` of what the body stores is
      ∑ₖ max ( ∑ₗ x(p, l) · U(l, k) + ∑ₗ a(p, l) · L(l, k) + b₁(0, k) , 0 ) · W(k, q) + b₂(0, q).
-/
import proofs.«126221_j824633721180_2_alg».proof.Proof.Gen.KernelIdeal.Skeleton
import proofs.«126221_j824633721180_2_alg».proof.Proof.LibPlainMatmul
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx

/-- Entry `(p, q)` of the block the body stores, from the blocks it loads. -/
theorem pay_apply (v0 v2 : FVec Ideal S5000x128 .f32) (v5 v8 : FVec Ideal S128x128 .f32) (v14 : FVec Ideal S1x128 .f32)
    (v21 : FVec Ideal S128x128 .f32) (v24 : FVec Ideal S1x128 .f32) (p : Fin 5000) (q : Fin 128) :
    k0_pay1 (F := Ideal) v0 v2 v5 v8 v14 v21 v24 (ix2 p q)
      = (∑ k : Fin 128,
          max (((∑ l : Fin 128, v0 (ix2 p l) * v5 (ix2 l k)) + ∑ l : Fin 128, v2 (ix2 p l) * v8 (ix2 l k))
            + v14 (ix2 (0 : Fin 1) k)) (Ideal.ofBits .f32 0x00000000#32) * v21 (ix2 k q))
        + v24 (ix2 (0 : Fin 1) q) := by
  unfold k0_pay1
  simp only [matmul, addf_apply, maximumf_apply, truncf_apply, broadcast_apply, shapeCast_self,
    broadcastTo_1b_ab_apply,
    PlainMatmul.matmul_zero_apply dot_S5000x128_S128x128_S5000x128_1_0_0_1_n_n rfl rfl rfl rfl rfl rfl]
  rfl

end Cert.KernelIdeal.Payload

end
-- ==== Proof.Spec.lean ====
/-
  A two-layer perceptron applied to each node's features joined with its aggregated edge messages, written as ONE
  function of its arrays, entry by entry, over the extended reals.

  For node `p` and hidden unit `k` the first layer is
      h(p, k) = max ( ∑ₗ x(p, l) · W₁(l, k)  +  ∑ₗ agg(p, l) · W₁(128 + l, k)  +  b₁(k) ,  0 ),
  the joined row `[x(p, ·), agg(p, ·)]` against the 256 rows of `W₁` with the sum over those rows written as its
  two halves, and the output is
      out(p, q) = ∑ₖ h(p, k) · W₂(k, q) + b₂(q).
  Splitting a finite sum over 256 terms into its first and last 128 uses only that addition is commutative and
  associative, which holds on the extended reals with no finiteness assumption (`sum_halves`).
-/
import Idealize.ShloMosaic.PureOps.Ideal
import Idealize.ShloMosaic.Lib.ValueIdx

noncomputable section

open scoped BigOperators

namespace Cert.Mlp

open Idealize.ShloMosaic Idealize.ShloMosaic.ValueIdx

/-- Row `l` of the upper half of a 256-row matrix. -/
abbrev upper (l : Fin 128) : Fin 256 := ⟨l.val, by omega⟩

/-- Row `l` of the lower half of a 256-row matrix: row `128 + l`. -/
abbrev lower (l : Fin 128) : Fin 256 := ⟨128 + l.val, by omega⟩

/-- A sum over 256 terms is the sum of its first 128 terms plus the sum of its last 128 terms. -/
theorem sum_halves {M : Type} [AddCommMonoid M] (f : Fin 256 → M) :
    ∑ l : Fin 256, f l = (∑ l : Fin 128, f (upper l)) + ∑ l : Fin 128, f (lower l) :=
  Fin.sum_univ_add (a := 128) (b := 128) f

/-- The first layer at node `p`, hidden unit `k`: the rectified affine image of the joined row. -/
def hidden (x agg : FVec Ideal ⟨2, ![50000, 128]⟩ .f32) (w1 : FVec Ideal ⟨2, ![256, 128]⟩ .f32)
    (b1 : FVec Ideal ⟨1, ![128]⟩ .f32) (p : Fin 50000) (k : Fin 128) : Ideal .f32 :=
  max (((∑ l : Fin 128, x (ix2 p l) * w1 (ix2 (upper l) k)) + ∑ l : Fin 128, agg (ix2 p l) * w1 (ix2 (lower l) k))
    + b1 (ix1 k)) (Ideal.ofBits .f32 0x00000000#32)

/-- The network's output array: the second affine layer of the hidden units, entry by entry. -/
def out (x agg : FVec Ideal ⟨2, ![50000, 128]⟩ .f32) (w1 : FVec Ideal ⟨2, ![256, 128]⟩ .f32)
    (b1 : FVec Ideal ⟨1, ![128]⟩ .f32) (w2 : FVec Ideal ⟨2, ![128, 128]⟩ .f32) (b2 : FVec Ideal ⟨1, ![128]⟩ .f32) :
    FVec Ideal ⟨2, ![50000, 128]⟩ .f32 := fun i =>
  (∑ k : Fin 128, hidden x agg w1 b1 (i 0) k * w2 (ix2 k (i 1))) + b2 (ix1 (i 1))

theorem out_apply (x agg : FVec Ideal ⟨2, ![50000, 128]⟩ .f32) (w1 : FVec Ideal ⟨2, ![256, 128]⟩ .f32)
    (b1 : FVec Ideal ⟨1, ![128]⟩ .f32) (w2 : FVec Ideal ⟨2, ![128, 128]⟩ .f32) (b2 : FVec Ideal ⟨1, ![128]⟩ .f32)
    (p : Fin 50000) (q : Fin 128) :
    out x agg w1 b1 w2 b2 (ix2 p q) = (∑ k : Fin 128, hidden x agg w1 b1 p k * w2 (ix2 k q)) + b2 (ix1 q) := rfl

end Cert.Mlp

end
-- ==== Proof.KernelBlocks.lean ====
/-
  From the blocks the body stores to the whole result array.

  The grid has ten points; point `t` works on node rows `5000·t … 5000·t + 4999`: it is handed those rows of the
  features and of the aggregated messages, and the whole of every weight and bias array — the upper and lower halves
  of the first weight matrix as two separate 128-row arrays, each bias as a one-row matrix — and writes those rows of
  the result. So what point `t` writes back is rows `5000·t …` of the perceptron of `Spec.lean`, the ten row
  ranges cover every row, and the result array after the run is that perceptron.
-/
import proofs.«126221_j824633721180_2_alg».proof.Proof.Gen.KernelIdeal.Value
import proofs.«126221_j824633721180_2_alg».proof.Proof.KernelPayload
import proofs.«126221_j824633721180_2_alg».proof.Proof.Spec
import Idealize.ShloMosaic.Lib.StableHlo.Run

noncomputable section

open scoped BigOperators

namespace Cert.KernelIdeal.Blocks

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

/-! ## One block, from blocks that are restrictions of the arrays -/

/-- If the body's loaded blocks are the rows `row p` of the features and of the aggregated messages, the two halves
    of the first weight matrix, the biases as rows and the second weight matrix, then entry `(p, q)` of what it stores
    is entry `(row p, q)` of the perceptron. -/
theorem block_entry (x agg : FVec Ideal ⟨2, ![50000, 128]⟩ .f32) (w1 : FVec Ideal ⟨2, ![256, 128]⟩ .f32)
    (b1 : FVec Ideal ⟨1, ![128]⟩ .f32) (w2 : FVec Ideal ⟨2, ![128, 128]⟩ .f32) (b2 : FVec Ideal ⟨1, ![128]⟩ .f32)
    (row : Fin 5000 → Fin 50000)
    (v0 v2 : FVec Ideal S5000x128 .f32) (v5 v8 : FVec Ideal S128x128 .f32) (v14 : FVec Ideal S1x128 .f32)
    (v21 : FVec Ideal S128x128 .f32) (v24 : FVec Ideal S1x128 .f32)
    (h0 : ∀ (p : Fin 5000) (l : Fin 128), v0 (ix2 p l) = x (ix2 (row p) l))
    (h2 : ∀ (p : Fin 5000) (l : Fin 128), v2 (ix2 p l) = agg (ix2 (row p) l))
    (h5 : ∀ l k : Fin 128, v5 (ix2 l k) = w1 (ix2 (Mlp.upper l) k))
    (h8 : ∀ l k : Fin 128, v8 (ix2 l k) = w1 (ix2 (Mlp.lower l) k))
    (h14 : ∀ k : Fin 128, v14 (ix2 (0 : Fin 1) k) = b1 (ix1 k))
    (h21 : ∀ k q : Fin 128, v21 (ix2 k q) = w2 (ix2 k q))
    (h24 : ∀ q : Fin 128, v24 (ix2 (0 : Fin 1) q) = b2 (ix1 q))
    (p : Fin 5000) (q : Fin 128) :
    k0_pay1 (F := Ideal) v0 v2 v5 v8 v14 v21 v24 (ix2 p q) = Mlp.out x agg w1 b1 w2 b2 (ix2 (row p) q) := by
  rw [Payload.pay_apply, Mlp.out_apply]
  simp only [Mlp.hidden, h0, h2, h5, h8, h14, h21, h24]

variable (m : (ℓ : Loc nD τ sig) → Buf (Elt Ideal) ℓ) (ρ : Dev nD → PrngReg)

/-! ## The arrays the region finds -/

/-- The upper half of the first weight matrix, as the region finds it. -/
theorem V_upper (c : Dev nD) : (V m c main_v5 : S128x128.Idx → Ideal .f32)
    = extractStridedSlice S128x128 ![0, 0] (m ((c : Thread nD τ).loc main_arg5)) slices_S256x128_S128x128_0_0 := by
  dsimp only [Gen.V, Gen.hostOps0]; after_results <;> rfl

/-- The lower half of the first weight matrix, as the region finds it. -/
theorem V_lower (c : Dev nD) : (V m c main_v6 : S128x128.Idx → Ideal .f32)
    = extractStridedSlice S128x128 ![128, 0] (m ((c : Thread nD τ).loc main_arg5)) slices_S256x128_S128x128_128_0 := by
  dsimp only [Gen.V, Gen.hostOps0]; after_results <;> rfl

/-- The first bias as a one-row matrix. -/
theorem V_bias1 (c : Dev nD) : (V m c main_v7 : S1x128.Idx → Ideal .f32)
    = shapeCast S1x128 (m ((c : Thread nD τ).loc main_arg6)) shapeCasts_S128_S1x128 := by
  dsimp only [Gen.V, Gen.hostOps0]; after_results <;> rfl

/-- The second bias as a one-row matrix. -/
theorem V_bias2 (c : Dev nD) : (V m c main_v8 : S1x128.Idx → Ideal .f32)
    = shapeCast S1x128 (m ((c : Thread nD τ).loc main_arg8)) shapeCasts_S128_S1x128 := by
  dsimp only [Gen.V, Gen.hostOps0]; after_results <;> rfl

/-! ## The result array -/

/-- The perceptron of the arrays the region finds: the features, the aggregated messages (the array the host's
    scatter-add left), the weights and the biases. -/
def G (c : Dev nD) : FVec Ideal ⟨2, ![50000, 128]⟩ .f32 :=
  Mlp.out (m ((c : Thread nD τ).loc main_arg0)) (V m c main_v4) (m ((c : Thread nD τ).loc main_arg5))
    (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-- The printed index maps over the ten points: the row-blocked windows are at block `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- WHAT POINT `t` WRITES BACK is block `t` of the perceptron of the arrays the region finds. -/
theorem flushed_eq (c : Dev nD) (t : Fin cfg0.N) :
    (dats m 0 c).flushed 7 t = ((cfg0.win 7).blk t).view.read (Elt Ideal) (G m c) := by
  rw [Value.flushed7]
  unfold out0_7
  rw [View.canon_unit_zero hz]
  simp only [View.ld_unit_zero (S := S5000x128) hz, View.ld_unit_zero (S := S128x128) hz,
    View.ld_unit_zero (S := S1x128) hz]
  have ht : t.val < 10 := lt_of_lt_of_eq t.isLt N_0
  obtain ⟨e00, e01, e10, e11, e20, e21, e30, e31, e40, e41, e50, e51, e60, e61, e70, e71⟩ := idx_facts t
  refine funext fun (j : S5000x128.Idx) => ?_
  obtain ⟨p, q, rfl⟩ : ∃ (p : Fin 5000) (q : Fin 128), j = ix2 p q := ⟨j 0, j 1, eq_ix2 j⟩
  show k0_pay1 (iblk m c 0 t) (iblk m c 1 t) (iblk m c 2 t) (iblk m c 3 t) (iblk m c 4 t) (iblk m c 5 t) (iblk m c 6 t)
      (ix2 p q) = G m c (((cfg0.win 7).blk t).view.emb (ix2 p q))
  have hrow : ((cfg0.win 7).blk t).view.emb (ix2 p q)
      = ix2 (⟨t.val * 5000 + p.val, by omega⟩ : Fin 50000) q := by
    funext a; apply Fin.ext
    match a with
    | ⟨0, _⟩ => show win0_7.index t (0 : Fin 2) * 5000 + 1 * p.val = t.val * 5000 + p.val; omega
    | ⟨1, _⟩ => show win0_7.index t (1 : Fin 2) * 128 + 1 * q.val = q.val; omega
  rw [hrow]
  unfold G
  refine block_entry _ _ _ _ _ _ (fun p => (⟨t.val * 5000 + p.val, by omega⟩ : Fin 50000))
    _ _ _ _ _ _ _ ?_ ?_ ?_ ?_ ?_ ?_ ?_ p q
  · intro p l
    show V m c main_arg0 (((cfg0.win 0).blk t).view.emb (ix2 p l)) = _
    rw [V_main_arg0]
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * l.val = l.val; omega
  · intro p l
    show V m c main_v4 (((cfg0.win 1).blk t).view.emb (ix2 p l)) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * l.val = l.val; omega
  · intro l k
    show V m c main_v5 (((cfg0.win 2).blk t).view.emb (ix2 l k)) = _
    have he : ((cfg0.win 2).blk t).view.emb (ix2 l k) = ix2 l k := by
      funext a; apply Fin.ext
      match a with
      | ⟨0, _⟩ => show win0_2.index t (0 : Fin 2) * 128 + 1 * l.val = l.val; omega
      | ⟨1, _⟩ => show win0_2.index t (1 : Fin 2) * 128 + 1 * k.val = k.val; omega
    rw [he, V_upper]
    exact slice2_axis0_apply 0 _ _ l k (Mlp.upper l) (Nat.zero_add _).symm
  · intro l k
    show V m c main_v6 (((cfg0.win 3).blk t).view.emb (ix2 l k)) = _
    have he : ((cfg0.win 3).blk t).view.emb (ix2 l k) = ix2 l k := by
      funext a; apply Fin.ext
      match a with
      | ⟨0, _⟩ => show win0_3.index t (0 : Fin 2) * 128 + 1 * l.val = l.val; omega
      | ⟨1, _⟩ => show win0_3.index t (1 : Fin 2) * 128 + 1 * k.val = k.val; omega
    rw [he, V_lower]
    exact slice2_axis0_apply 128 _ _ l k (Mlp.lower l) rfl
  · intro k
    show V m c main_v7 (((cfg0.win 4).blk t).view.emb (ix2 (0 : Fin 1) k)) = _
    have he : ((cfg0.win 4).blk t).view.emb (ix2 (0 : Fin 1) k) = ix2 (0 : Fin 1) k := by
      funext a; apply Fin.ext
      match a with
      | ⟨0, _⟩ => show win0_4.index t (0 : Fin 2) * 1 + 1 * 0 = 0; omega
      | ⟨1, _⟩ => show win0_4.index t (1 : Fin 2) * 128 + 1 * k.val = k.val; omega
    rw [he, V_bias1]
    exact shapeCast_a_1a_apply _ _ 0 k
  · intro k q
    show V m c main_arg7 (((cfg0.win 5).blk t).view.emb (ix2 k q)) = _
    rw [V_main_arg7]
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega
  · intro q
    show V m c main_v8 (((cfg0.win 6).blk t).view.emb (ix2 (0 : Fin 1) q)) = _
    have he : ((cfg0.win 6).blk t).view.emb (ix2 (0 : Fin 1) q) = ix2 (0 : Fin 1) q := by
      funext a; apply Fin.ext
      match a with
      | ⟨0, _⟩ => show win0_6.index t (0 : Fin 2) * 1 + 1 * 0 = 0; omega
      | ⟨1, _⟩ => show win0_6.index t (1 : Fin 2) * 128 + 1 * q.val = q.val; omega
    rw [he, V_bias2]
    exact shapeCast_a_1a_apply _ _ 0 q

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v9).slice (win0_7.rect t)).set ↔ _
  rw [View.set_slice_whole, Rect.mem_set_unit]
  exact Iff.rfl

/-- Every row is in some point's row range: row `r` in that of point `r / 5000`. -/
theorem cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨-, -, -, -, -, -, -, -, -, -, -, -, -, -, e70, e71⟩ := idx_facts t
  have e70' : win0_7.index t (0 : Fin 2) = (i 0).val / 5000 := e70
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE RESULT ARRAY after the run is the perceptron of the arrays the region finds. -/
theorem final (c : Dev nD) : (dats m 0 c).arrAt 7 cfg0.N = G m c :=
  (dats m 0 c).arrAt_eq_of_cover 7 (G m c) (fun t _ => flushed_eq m c t) cover

/-- The kernel's run: it ends, without a fault, with the result array at the perceptron and the arguments unchanged. -/
theorem run : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Blocks

end
-- ==== Proof.Reference.lean ====
/-
  The reference, entry by entry, is the perceptron of `Spec.lean`.

  The reference joins each node's feature row with its aggregated-message row into one row of 256 entries and multiplies
  by the whole first weight matrix. An entry of the joined array in the first 128 columns is the feature entry, one in the
  last 128 columns is the aggregated entry, so the sum over the 256 joined columns, split into its halves, is the
  sum over features against the upper rows of the weights plus the sum over aggregated messages against the lower rows.
  The biases are broadcast rows; the rectifier is the maximum with zero; the second layer is a plain matrix product.
  The aggregated messages themselves (a scatter-add of the edge rows) are not opened: they enter as one array.
-/
import proofs.«126221_j824633721180_2_alg».proof.Proof.Gen.ReferenceIdeal.Read
import proofs.«126221_j824633721180_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The operands' indices of each stage, as coordinates -/

theorem lidx11 (p : Fin 50000) (q k : Fin 128) : lidx_main_v11 (ix2 p q) k = ix2 p k :=
  funext fun a => Fin.ext (by match a with | ⟨0, _⟩ => rfl | ⟨1, _⟩ => rfl)

theorem ridx11 (p : Fin 50000) (q k : Fin 128) : ridx_main_v11 (ix2 p q) k = ix2 k q :=
  funext fun a => Fin.ext (by match a with | ⟨0, _⟩ => rfl | ⟨1, _⟩ => rfl)

theorem lidx6 (p : Fin 50000) (k : Fin 128) (l : Fin 256) : lidx_main_v6 (ix2 p k) l = ix2 p l :=
  funext fun a => Fin.ext (by match a with | ⟨0, _⟩ => rfl | ⟨1, _⟩ => rfl)

theorem ridx6 (p : Fin 50000) (k : Fin 128) (l : Fin 256) : ridx_main_v6 (ix2 p k) l = ix2 l k :=
  funext fun a => Fin.ext (by match a with | ⟨0, _⟩ => rfl | ⟨1, _⟩ => rfl)

/-- A bias broadcast over the rows is read at its column. -/
theorem bias_idx (p : Fin 50000) (k : Fin 128) : idx_main_v7 (idx_main_v8 (ix2 p k)) = ix1 k :=
  funext fun a => Fin.ext (by match a with | ⟨0, _⟩ => rfl)

theorem bias_idx' (p : Fin 50000) (k : Fin 128) : idx_main_v12 (idx_main_v13 (ix2 p k)) = ix1 k :=
  funext fun a => Fin.ext (by match a with | ⟨0, _⟩ => rfl)

/-! ## The joined array -/

/-- In its first 128 columns the joined array is the first array. -/
theorem joined_upper (x y : FVec Ideal S50000x128 .f32) (p : Fin 50000) (l : Fin 128) :
    concatenate S50000x256 1 [⟨S50000x128, x⟩, ⟨S50000x128, y⟩] concatenates_S50000x128_S50000x128_S50000x256_d1
      (ix2 p (Mlp.upper l)) = x (ix2 p l) :=
  concatenate_pair_apply_left 1 x y _ (ix2 p (Mlp.upper l)) rfl (ix2 p l)
    (fun b => match b with | ⟨0, _⟩ => rfl | ⟨1, _⟩ => rfl)

/-- In its last 128 columns the joined array is the second array, 128 columns to the left. -/
theorem joined_lower (x y : FVec Ideal S50000x128 .f32) (p : Fin 50000) (l : Fin 128) :
    concatenate S50000x256 1 [⟨S50000x128, x⟩, ⟨S50000x128, y⟩] concatenates_S50000x128_S50000x128_S50000x256_d1
      (ix2 p (Mlp.lower l)) = y (ix2 p l) :=
  concatenate_pair_apply_right 1 x y _ (ix2 p (Mlp.lower l)) rfl rfl (ix2 p l)
    (fun b hb => match b, hb with | ⟨0, _⟩, _ => rfl | ⟨1, _⟩, hb => absurd rfl hb)
    (by show l.val + 128 = 128 + l.val; omega)

/-! ## The reference's result -/

/-- The reference's result array is the perceptron of the features, the aggregated messages, the weights and the
    biases. -/
theorem result_eq (x0 : FVec Ideal S50000x128 .f32) (x1 : IVec S2x600000 32) (x2 : FVec Ideal S600000x128 .f32)
    (x5 : FVec Ideal S256x128 .f32) (x6 : FVec Ideal S128 .f32) (x7 : FVec Ideal S128x128 .f32) (x8 : FVec Ideal S128 .f32) :
    val_main_v14 (F := Ideal) x0 x1 x2 x5 x6 x7 x8 = Mlp.out x0 (val_main_v4 (F := Ideal) x1 x2) x5 x6 x7 x8 := by
  funext i
  obtain ⟨p, q, rfl⟩ : ∃ (p : Fin 50000) (q : Fin 128), i = ix2 p q := ⟨i 0, i 1, eq_ix2 i⟩
  rw [Mlp.out_apply, val_main_v14_apply, val_main_v11_apply, val_main_v13_apply, val_main_v12_apply, bias_idx']
  simp only [lidx11, ridx11, val_main_v10_apply, val_main_v9_apply, val_main_v6_apply, lidx6, ridx6,
    val_main_v8_apply, val_main_v7_apply, bias_idx, val_main_call0_v0_apply, val_main_call0_cst_apply,
    Mlp.sum_halves, val_main_v5, joined_upper, joined_lower, Mlp.hidden]
  rfl

end Cert.ReferenceIdeal.RefValue

end
-- ==== Proof.lean ====
/-
  A two-layer perceptron on graph nodes: each node's 128 features are joined with the sum of the 128-entry messages
  of the edges that point at it, and the joined row of 256 entries goes through an affine layer, a rectifier and a
  second affine layer.

  The reference forms the joined 50000 × 256 array and multiplies it by the whole 256 × 128 first weight matrix. The
  kernel never forms the joined array: it multiplies the features by the upper 128 rows of the weights and the
  aggregated messages by the lower 128 rows, and adds the two products; it does so in ten blocks of 5000 node rows,
  rounding the factors of each product to a narrower format on the way in. Over the extended reals a rounding is the
  identity, a matrix product is a finite sum of products, and a sum over 256 joined columns is the sum over its first
  128 terms plus the sum over its last 128 — addition being commutative and associative, no finiteness is needed. So
  both programs end with the same array (`Spec.lean`'s `Mlp.out`): the kernel block by block (`KernelPayload.lean`,
  `KernelBlocks.lean`), the reference stage by stage (`Reference.lean`). The aggregation of the edge messages is the
  same host computation in both programs and is carried as one array, never opened.

  The kernel's idealization rewrites nothing, so that it preserves the kernel is trivially true; the three frames
  are the generated ones (the reference's is its generated run with the result dropped).
-/
import proofs.«126221_j824633721180_2_alg».proof.Defs
import proofs.«126221_j824633721180_2_alg».proof.Proof.Gen.Kernel
import proofs.«126221_j824633721180_2_alg».proof.Proof.Gen.Kernel.Skeleton
import proofs.«126221_j824633721180_2_alg».proof.Proof.Gen.Kernel.Launch
import proofs.«126221_j824633721180_2_alg».proof.Proof.Gen.Kernel.Points
import proofs.«126221_j824633721180_2_alg».proof.Proof.Gen.Kernel.Frame
import proofs.«126221_j824633721180_2_alg».proof.Proof.Gen.KernelIdeal
import proofs.«126221_j824633721180_2_alg».proof.Proof.Gen.KernelIdeal.Skeleton
import proofs.«126221_j824633721180_2_alg».proof.Proof.Gen.KernelIdeal.Launch
import proofs.«126221_j824633721180_2_alg».proof.Proof.Gen.KernelIdeal.Points
import proofs.«126221_j824633721180_2_alg».proof.Proof.Gen.KernelIdeal.Frame
import proofs.«126221_j824633721180_2_alg».proof.Proof.Gen.ReferenceIdeal
import proofs.«126221_j824633721180_2_alg».proof.Proof.Gen.Pre_finite_inputs
import proofs.«126221_j824633721180_2_alg».proof.Proof.Gen.KernelIdeal.Value
import proofs.«126221_j824633721180_2_alg».proof.Proof.Gen.ReferenceIdeal.Run
import proofs.«126221_j824633721180_2_alg».proof.Proof.Gen.ReferenceIdeal.Read
import proofs.«126221_j824633721180_2_alg».proof.Proof.KernelBlocks
import proofs.«126221_j824633721180_2_alg».proof.Proof.Reference
import Idealize.ShloMosaic.Adequacy
import Idealize.ShloMosaic.Init

noncomputable section

namespace Cert.Proof

open Idealize.ShloMosaic Idealize.SL.Sem Idealize.ShloMosaic.TcCoe

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The aggregated messages the kernel's region finds are the reference's aggregated messages of the same edge
    arrays: the same scatter-add of the same operands. -/
theorem agg_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v4 : Cert.KernelIdeal.S50000x128.Idx → Ideal .f32)
      = Cert.ReferenceIdeal.Read.val_main_v4 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  dsimp only [Cert.KernelIdeal.Gen.V, Cert.KernelIdeal.Gen.hostOps0]; after_results <;> rfl

/-- From memories that agree on the arguments both programs end with the perceptron of those arguments. -/
theorem algebraic : Cert.algebraic_KernelIdeal_ReferenceIdeal := by
  intro m ρ m' ρ' _ hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq]
  obtain ⟨h0, h1, h2, -, -, h5, h6, h7, h8⟩ := hagree c
  rw [h0, h1, h2, h5, h6, h7, h8]
  show _ = Cert.KernelIdeal.Blocks.G m c
  unfold Cert.KernelIdeal.Blocks.G
  rw [agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
